-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4x2048x32x1 : Shape := ⟨4, ![4, 2048, 32, 1]⟩
abbrev S11008x4096 : Shape := ⟨2, ![11008, 4096]⟩
abbrev S11008x32x1 : Shape := ⟨3, ![11008, 32, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4x2048x32x1 : S_.BroadcastsInDim S4x2048x32x1 (![] : Fin 0 → Fin S4x2048x32x1.rank)
  reducesTo_S4x2048x32x1_S_d0_1_2_3 : S4x2048x32x1.ReducesTo [0, 1, 2, 3] S_
  bcast_S_S11008x32x1 : S_.BroadcastsInDim S11008x32x1 (![] : Fin 0 → Fin S11008x32x1.rank)
  reducesTo_S11008x32x1_S_d0_1_2 : S11008x32x1.ReducesTo [0, 1, 2] S_

variable [Facts]

def fn_part1 {F : FTy → Type} [FloatOps F] (main_arg5 : FVec F S11008x32x1 .f32) (main_v13 : IVec S_ 1) (main_v16 : IVec S11008x32x1 1) : IVec S_ 1 :=
  let main_c_5 : IVec S_ 1 := constantI S_ 1 1#1
  let main_v17 : IVec S_ 1 := (fun x v => Host.reduce IntOp.andi x v reducesTo_S11008x32x1_S_d0_1_2 h_S_) main_v16 main_c_5
  let main_v18 : IVec S_ 1 := andi main_v13 main_v17
  let main_v19 : FVec F S11008x32x1 .f32 := Host.absf main_arg5
  let main_cst_6 : FVec F S_ .f32 := constant S_ .f32 0x7F800000#32
  let main_v20 : FVec F S11008x32x1 .f32 := broadcastInDim S11008x32x1 ![] bcast_S_S11008x32x1 main_cst_6
  let main_v21 : IVec S11008x32x1 1 := cmpf .olt main_v19 main_v20
  let main_c_7 : IVec S_ 1 := constantI S_ 1 1#1
  let main_v22 : IVec S_ 1 := (fun x v => Host.reduce IntOp.andi x v reducesTo_S11008x32x1_S_d0_1_2 h_S_) main_v21 main_c_7
  let main_v23 : IVec S_ 1 := andi main_v18 main_v22
  main_v23

def fn {F : FTy → Type} [FloatOps F] (main_arg0 : FVec F S4x2048x4096 .f32) (main_arg1 : FVec F S4x2048x32x1 .f32) (main_arg2 : FVec F S4x2048x32x1 .f32) (main_arg3 : IVec S11008x4096 32) (main_arg4 : FVec F S11008x32x1 .f32) (main_arg5 : FVec F S11008x32x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x2048x32x1 .f32 := Host.absf main_arg1
  let main_cst_0 : FVec F S_ .f32 := constant S_ .f32 0x7F800000#32
  let main_v5 : FVec F S4x2048x32x1 .f32 := broadcastInDim S4x2048x32x1 ![] bcast_S_S4x2048x32x1 main_cst_0
  let main_v6 : IVec S4x2048x32x1 1 := cmpf .olt main_v4 main_v5
  let main_c_1 : IVec S_ 1 := constantI S_ 1 1#1
  let main_v7 : IVec S_ 1 := (fun x v => Host.reduce IntOp.andi x v reducesTo_S4x2048x32x1_S_d0_1_2_3 h_S_) main_v6 main_c_1
  let main_v8 : IVec S_ 1 := andi main_v3 main_v7
  let main_v9 : FVec F S4x2048x32x1 .f32 := Host.absf main_arg2
  let main_cst_2 : FVec F S_ .f32 := constant S_ .f32 0x7F800000#32
  let main_v10 : FVec F S4x2048x32x1 .f32 := broadcastInDim S4x2048x32x1 ![] bcast_S_S4x2048x32x1 main_cst_2
  let main_v11 : IVec S4x2048x32x1 1 := cmpf .olt main_v9 main_v10
  let main_c_3 : IVec S_ 1 := constantI S_ 1 1#1
  let main_v12 : IVec S_ 1 := (fun x v => Host.reduce IntOp.andi x v reducesTo_S4x2048x32x1_S_d0_1_2_3 h_S_) main_v11 main_c_3
  let main_v13 : IVec S_ 1 := andi main_v8 main_v12
  let main_v14 : FVec F S11008x32x1 .f32 := Host.absf main_arg4
  let main_cst_4 : FVec F S_ .f32 := constant S_ .f32 0x7F800000#32
  let main_v15 : FVec F S11008x32x1 .f32 := broadcastInDim S11008x32x1 ![] bcast_S_S11008x32x1 main_cst_4
  let main_v16 : IVec S11008x32x1 1 := cmpf .olt main_v14 main_v15
  fn_part1 (F := F) main_arg5 main_v13 main_v16
-- ==== Kernel.lean ====
abbrev S4x2048x4096 : Shape := ⟨3, ![4, 2048, 4096]⟩
abbrev S4x2048x32x1 : Shape := ⟨4, ![4, 2048, 32, 1]⟩
abbrev S11008x4096 : Shape := ⟨2, ![11008, 4096]⟩
abbrev S11008x32x1 : Shape := ⟨3, ![11008, 32, 1]⟩
abbrev S8192x4096 : Shape := ⟨2, ![8192, 4096]⟩
abbrev S8192x32 : Shape := ⟨2, ![8192, 32]⟩
abbrev S11008x32 : Shape := ⟨2, ![11008, 32]⟩
abbrev S8192x11008 : Shape := ⟨2, ![8192, 11008]⟩
abbrev S512x4096 : Shape := ⟨2, ![512, 4096]⟩
abbrev S512x32 : Shape := ⟨2, ![512, 32]⟩
abbrev S128x4096 : Shape := ⟨2, ![128, 4096]⟩
abbrev S128x32 : Shape := ⟨2, ![128, 32]⟩
abbrev S512x128 : Shape := ⟨2, ![512, 128]⟩
abbrev S512x32x128 : Shape := ⟨3, ![512, 32, 128]⟩
abbrev S512x32x1 : Shape := ⟨3, ![512, 32, 1]⟩
abbrev S128x32x128 : Shape := ⟨3, ![128, 32, 128]⟩
abbrev S128x32x1 : Shape := ⟨3, ![128, 32, 1]⟩
abbrev S4x2048x11008 : Shape := ⟨3, ![4, 2048, 11008]⟩

abbrev nBuf : Space → Nat
  | .hbm => 13
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4x2048x32x1, .f32⟩
  | .hbm, ⟨2, _⟩ => ⟨S4x2048x32x1, .f32⟩
  | .hbm, ⟨3, _⟩ => ⟨S11008x4096, .i32⟩
  | .hbm, ⟨4, _⟩ => ⟨S11008x32x1, .f32⟩
  | .hbm, ⟨5, _⟩ => ⟨S11008x32x1, .f32⟩
  | .hbm, ⟨6, _⟩ => ⟨S8192x4096, .f32⟩
  | .hbm, ⟨7, _⟩ => ⟨S8192x32, .f32⟩
  | .hbm, ⟨8, _⟩ => ⟨S8192x32, .f32⟩
  | .hbm, ⟨9, _⟩ => ⟨S11008x32, .f32⟩
  | .hbm, ⟨10, _⟩ => ⟨S11008x32, .f32⟩
  | .hbm, ⟨11, _⟩ => ⟨S8192x11008, .f32⟩
  | .hbm, ⟨12, _⟩ => ⟨S4x2048x11008, .f32⟩
  | .local _ .vmem, ⟨0, _⟩ => ⟨S512x4096, .f32⟩
  | .local _ .vmem, ⟨1, _⟩ => ⟨S512x4096, .f32⟩
  | .local _ .vmem, ⟨2, _⟩ => ⟨S512x32, .f32⟩
  | .local _ .vmem, ⟨3, _⟩ => ⟨S512x32, .f32⟩
  | .local _ .vmem, ⟨4, _⟩ => ⟨S512x32, .f32⟩
  | .local _ .vmem, ⟨5, _⟩ => ⟨S512x32, .f32⟩
  | .local _ .vmem, ⟨6, _⟩ => ⟨S128x4096, .i32⟩
  | .local _ .vmem, ⟨7, _⟩ => ⟨S128x4096, .i32⟩
  | .local _ .vmem, ⟨8, _⟩ => ⟨S128x32, .f32⟩
  | .local _ .vmem, ⟨9, _⟩ => ⟨S128x32, .f32⟩
  | .local _ .vmem, ⟨10, _⟩ => ⟨S128x32, .f32⟩
  | .local _ .vmem, ⟨11, _⟩ => ⟨S128x32, .f32⟩
  | .local _ .vmem, ⟨12, _⟩ => ⟨S512x128, .f32⟩
  | .local _ .vmem, ⟨13, _⟩ => ⟨S512x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x2048x4096_S8192x4096 : S4x2048x4096.ShapeCasts S8192x4096
  shapeCasts_S4x2048x32x1_S8192x32 : S4x2048x32x1.ShapeCasts S8192x32
  shapeCasts_S11008x32x1_S11008x32 : S11008x32x1.ShapeCasts S11008x32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S512x4096_S512x32x128 : S512x4096.ShapeCasts S512x32x128
  inb_S512x32_S512x32_0_0 : ∀ a, (![0, 0] : Fin 2 → Nat) a + S512x32.size a ≤ S512x32.size a
  h_S512x32 : 0 < S512x32.numel
  shapeCasts_S512x32_S512x32 : S512x32.ShapeCasts S512x32
  shapeCasts_S512x32_S512x32x1 : S512x32.ShapeCasts S512x32x1
  broadcasts_S512x32x1_S512x32x128 : S512x32x1.Broadcasts S512x32x128
  shapeCasts_S512x32x128_S512x4096 : S512x32x128.ShapeCasts S512x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x32x128 : S128x4096.ShapeCasts S128x32x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  inb_S512x128_S512x128_0_0 : ∀ a, (![0, 0] : Fin 2 → Nat) a + S512x128.size a ≤ S512x128.size a
  h_S512x128 : 0 < S512x128.numel
  shapeCasts_S8192x11008_S4x2048x11008 : S8192x11008.ShapeCasts S4x2048x11008
  dot_S512x4096_S128x4096_S512x128_1_1_0_0_n_n_wf : DotDims.WF S512x4096 S128x4096 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S8192x32.size a
  hwx0_1 : ∀ i : grid0.Coords, EltTy.bits .f32 = 32 ∨ (Rect.block (s := S8192x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S8192x32.size a
  hwx0_2 : ∀ i : grid0.Coords, EltTy.bits .f32 = 32 ∨ (Rect.block (s := S8192x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S11008x4096.size a
  hwx0_3 : ∀ i : grid0.Coords, EltTy.bits .i32 = 32 ∨ (Rect.block (s := S11008x4096) S128x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S11008x32.size a
  hwx0_4 : ∀ i : grid0.Coords, EltTy.bits .f32 = 32 ∨ (Rect.block (s := S11008x32) S128x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S11008x32.size a
  hwx0_5 : ∀ i : grid0.Coords, EltTy.bits .f32 = 32 ∨ (Rect.block (s := S11008x32) S128x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S8192x11008.size a
  hwx0_6 : ∀ i : grid0.Coords, EltTy.bits .f32 = 32 ∨ (Rect.block (s := S8192x11008) S512x128.size (cc0_transform_6 i) (hinb0_6 i)).WholeWords (EltTy.packing .f32)

variable [Facts₀]

def dot_S512x4096_S128x4096_S512x128_1_1_0_0_n_n : DotDims S512x4096 S128x4096 S512x128 where
  lhsContracting := [1]
  rhsContracting := [1]
  lhsNonContracting := [0]
  rhsNonContracting := [0]
  lhsBatch := []
  rhsBatch := []
  wf := dot_S512x4096_S128x4096_S512x128_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4x2048x32x1 : Shape := ⟨4, ![4, 2048, 32, 1]⟩
abbrev S11008x4096 : Shape := ⟨2, ![11008, 4096]⟩
abbrev S11008x32x1 : Shape := ⟨3, ![11008, 32, 1]⟩
abbrev S4x2048x32x128 : Shape := ⟨4, ![4, 2048, 32, 128]⟩
abbrev S11008x32x128 : Shape := ⟨3, ![11008, 32, 128]⟩
abbrev S4x2048x11008 : Shape := ⟨3, ![4, 2048, 11008]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x32x1, .f32⟩
  | .hbm, ⟨2, _⟩ => ⟨S4x2048x32x1, .f32⟩
  | .hbm, ⟨3, _⟩ => ⟨S11008x4096, .i32⟩
  | .hbm, ⟨4, _⟩ => ⟨S11008x32x1, .f32⟩
  | .hbm, ⟨5, _⟩ => ⟨S11008x32x1, .f32⟩
  | .hbm, ⟨6, _⟩ => ⟨S4x2048x32x128, .f32⟩
  | .hbm, ⟨7, _⟩ => ⟨S4x2048x32x128, .f32⟩
  | .hbm, ⟨8, _⟩ => ⟨S4x2048x32x128, .f32⟩
  | .hbm, ⟨9, _⟩ => ⟨S4x2048x32x128, .f32⟩
  | .hbm, ⟨10, _⟩ => ⟨S4x2048x32x128, .f32⟩
  | .hbm, ⟨11, _⟩ => ⟨S4x2048x4096, .f32⟩
  | .hbm, ⟨12, _⟩ => ⟨S11008x32x128, .i32⟩
  | .hbm, ⟨13, _⟩ => ⟨S11008x32x128, .f32⟩
  | .hbm, ⟨14, _⟩ => ⟨S11008x32x128, .f32⟩
  | .hbm, ⟨15, _⟩ => ⟨S11008x32x128, .f32⟩
  | .hbm, ⟨16, _⟩ => ⟨S11008x32x128, .f32⟩
  | .hbm, ⟨17, _⟩ => ⟨S11008x32x128, .f32⟩
  | .hbm, ⟨18, _⟩ => ⟨S11008x4096, .f32⟩
  | .hbm, ⟨19, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  shapeCasts_S4x2048x4096_S4x2048x32x128 : S4x2048x4096.ShapeCasts S4x2048x32x128
  bcast_S4x2048x32x1_S4x2048x32x128_0_1_2_3 : S4x2048x32x1.BroadcastsInDim S4x2048x32x128 (![0, 1, 2, 3] : Fin 4 → Fin S4x2048x32x128.rank)
  shapeCasts_S4x2048x32x128_S4x2048x4096 : S4x2048x32x128.ShapeCasts S4x2048x4096
  shapeCasts_S11008x4096_S11008x32x128 : S11008x4096.ShapeCasts S11008x32x128
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  Group-wise dequantised matrix product, stated once.

  An activation matrix X (rows × 4096 features) and an integer weight matrix W (outputs × 4096 features) are each
  dequantised in groups of 128 consecutive features: feature k belongs to group k / 128, and every (row, group) pair
  carries one scale and one zero point, so the dequantised entries are

      act r k = (X r k − Z r (k / 128)) · A r (k / 128)           wgt o k = (int W o k − Zr o (k / 128)) · Sc o (k / 128)

  and the result is the contraction over the 4096 features, out r o = Σ k, act r k · wgt o k — a plain sum of products on the
  extended reals, in which no term is ever moved across another, so nothing here asks the entries to be finite.

  The file has three parts: how the layout changes that split the feature axis into (group, lane), add a unit lane axis to
  a per-group table, and repeat that table along the lanes read at an index; the specification itself, on row-major
  matrices (prod2) and on the batched arrays the programs take (out); and the law joining them: viewing (batch, position)
  as the single row 2048 · batch + position commutes with the whole computation.
-/
import Idealize.ShloMosaic.PureOps.Ideal
import Idealize.ShloMosaic.PureOps.Ideal.Laws
import Idealize.ShloMosaic.Lib.ValueIdx
import Idealize.ShloMosaic.Lib.Pipeline.Value

noncomputable section

namespace Cert.GroupDequant

open Idealize.ShloMosaic Idealize.ShloMosaic.ValueIdx

/-- The quantisation group of feature k: 128 consecutive features share one scale and one zero point. -/
def grp (k : Fin 4096) : Fin 32 := ⟨k.val / 128, by have := k.isLt; omega⟩

/-- The position of feature k inside its group. -/
def lane (k : Fin 4096) : Fin 128 := ⟨k.val % 128, Nat.mod_lt _ (by decide)⟩

theorem grp_lane (k : Fin 4096) : k.val = (grp k).val * 128 + (lane k).val := by
  show k.val = k.val / 128 * 128 + k.val % 128
  omega

/-! ## Layout changes read at an index -/

section Layout

variable {α : Type} {M : ℕ}

/-- Splitting the feature axis into (group, lane): entry (r, g, l) of the split matrix is entry (r, 128 g + l). -/
theorem split_apply (x : (⟨2, ![M, 4096]⟩ : Shape).Idx → α)
    (h : (⟨2, ![M, 4096]⟩ : Shape).ShapeCasts ⟨3, ![M, 32, 128]⟩) (r : Fin M) (g : Fin 32) (l : Fin 128) (k : Fin 4096)
    (hk : k.val = g.val * 128 + l.val) :
    shapeCast ⟨3, ![M, 32, 128]⟩ x h (ix3 r g l) = x (ix2 r k) :=
  shapeCast_apply x h (ix3 r g l) (ix2 r k) (by
    rw [Shape.rowMajor_val_two, Shape.rowMajor_val_three]
    show r.val * 4096 + k.val = (r.val * 32 + g.val) * 128 + l.val
    omega)

/-- Merging (group, lane) back into one feature axis: entry (r, k) of the merged matrix is entry (r, k / 128, k % 128). -/
theorem merge_apply (y : (⟨3, ![M, 32, 128]⟩ : Shape).Idx → α)
    (h : (⟨3, ![M, 32, 128]⟩ : Shape).ShapeCasts ⟨2, ![M, 4096]⟩) (r : Fin M) (k : Fin 4096) :
    shapeCast ⟨2, ![M, 4096]⟩ y h (ix2 r k) = y (ix3 r (grp k) (lane k)) :=
  shapeCast_apply y h (ix2 r k) (ix3 r (grp k) (lane k)) (by
    rw [Shape.rowMajor_val_two, Shape.rowMajor_val_three]
    show (r.val * 32 + (grp k).val) * 128 + (lane k).val = r.val * 4096 + k.val
    have := grp_lane k
    omega)

/-- A per-(row, group) table given a unit lane axis: entry (r, g, 0) is entry (r, g). -/
theorem unitLane_apply (a : (⟨2, ![M, 32]⟩ : Shape).Idx → α)
    (h : (⟨2, ![M, 32]⟩ : Shape).ShapeCasts ⟨3, ![M, 32, 1]⟩) (r : Fin M) (g : Fin 32) :
    shapeCast ⟨3, ![M, 32, 1]⟩ a h (ix3 r g (0 : Fin 1)) = a (ix2 r g) :=
  shapeCast_apply a h (ix3 r g (0 : Fin 1)) (ix2 r g) (by
    rw [Shape.rowMajor_val_two, Shape.rowMajor_val_three]
    show r.val * 32 + g.val = (r.val * 32 + g.val) * 1 + 0
    omega)

/-- The table repeated along the 128 lanes: entry (r, g, l) is entry (r, g, 0), whatever the lane. -/
theorem lanes_apply (b : (⟨3, ![M, 32, 1]⟩ : Shape).Idx → α)
    (h : (⟨3, ![M, 32, 1]⟩ : Shape).Broadcasts ⟨3, ![M, 32, 128]⟩) (r : Fin M) (g : Fin 32) (l : Fin 128) :
    broadcastTo ⟨3, ![M, 32, 128]⟩ b h (ix3 r g l) = b (ix3 r g (0 : Fin 1)) :=
  broadcastTo_apply b h (ix3 r g l) (ix3 r g (0 : Fin 1)) (fun a => match a with
    | ⟨0, _⟩ => by
        show r.val = if M = 1 then 0 else r.val
        split
        · have := r.isLt; omega
        · rfl
    | ⟨1, _⟩ => by show g.val = if (32 : Nat) = 1 then 0 else g.val; rw [if_neg (by decide)]
    | ⟨2, _⟩ => by show 0 = if (1 : Nat) = 1 then 0 else l.val; rw [if_pos rfl])

end Layout

/-! ## The specification -/

/-- One dequantised activation entry: (X r k − Z r g) · A r g, g the group of feature k. -/
def act {M : ℕ} (X : FVec Ideal ⟨2, ![M, 4096]⟩ .f32) (A Z : FVec Ideal ⟨2, ![M, 32]⟩ .f32) (r : Fin M) (k : Fin 4096) : EReal :=
  (X (ix2 r k) - Z (ix2 r (grp k))) * A (ix2 r (grp k))

/-- One dequantised weight entry: (int W o k − Zr o g) · Sc o g, the stored integer read as the real number it is. -/
def wgt {N : ℕ} (W : IVec ⟨2, ![N, 4096]⟩ 32) (Sc Zr : FVec Ideal ⟨2, ![N, 32]⟩ .f32) (o : Fin N) (k : Fin 4096) : EReal :=
  (FloatOps.sitofp (F := Ideal) .f32 (W (ix2 o k)) - Zr (ix2 o (grp k))) * Sc (ix2 o (grp k))

/-- The product of the two dequantised matrices, contracted over the features: entry (r, o) is Σ k, act r k · wgt o k. -/
def prod2 {M N : ℕ} (X : FVec Ideal ⟨2, ![M, 4096]⟩ .f32) (A Z : FVec Ideal ⟨2, ![M, 32]⟩ .f32)
    (W : IVec ⟨2, ![N, 4096]⟩ 32) (Sc Zr : FVec Ideal ⟨2, ![N, 32]⟩ .f32) : FVec Ideal ⟨2, ![M, N]⟩ .f32 :=
  fun j => ∑ k : Fin 4096, act X A Z (j 0) k * wgt W Sc Zr (j 1) k

/-- The dequantisation of a matrix written with the layout changes the programs use — split the features into
    (group, lane), subtract and scale by the tables repeated along the lanes, merge back — is act, entry by entry. -/
theorem dequant_act {M : ℕ} (X : FVec Ideal ⟨2, ![M, 4096]⟩ .f32) (A Z : FVec Ideal ⟨2, ![M, 32]⟩ .f32)
    (hs : (⟨2, ![M, 4096]⟩ : Shape).ShapeCasts ⟨3, ![M, 32, 128]⟩)
    (hu : (⟨2, ![M, 32]⟩ : Shape).ShapeCasts ⟨3, ![M, 32, 1]⟩)
    (hb : (⟨3, ![M, 32, 1]⟩ : Shape).Broadcasts ⟨3, ![M, 32, 128]⟩)
    (hm : (⟨3, ![M, 32, 128]⟩ : Shape).ShapeCasts ⟨2, ![M, 4096]⟩) (r : Fin M) (k : Fin 4096) :
    shapeCast ⟨2, ![M, 4096]⟩
        (mulf (subf (shapeCast ⟨3, ![M, 32, 128]⟩ X hs : FVec Ideal ⟨3, ![M, 32, 128]⟩ .f32)
                    (broadcastTo ⟨3, ![M, 32, 128]⟩ (shapeCast ⟨3, ![M, 32, 1]⟩ Z hu) hb))
              (broadcastTo ⟨3, ![M, 32, 128]⟩ (shapeCast ⟨3, ![M, 32, 1]⟩ A hu) hb)) hm (ix2 r k)
      = act X A Z r k := by
  refine (merge_apply _ hm r k).trans ?_
  show (shapeCast ⟨3, ![M, 32, 128]⟩ X hs (ix3 r (grp k) (lane k))
        - broadcastTo ⟨3, ![M, 32, 128]⟩ (shapeCast ⟨3, ![M, 32, 1]⟩ Z hu) hb (ix3 r (grp k) (lane k)))
      * broadcastTo ⟨3, ![M, 32, 128]⟩ (shapeCast ⟨3, ![M, 32, 1]⟩ A hu) hb (ix3 r (grp k) (lane k)) = _
  rw [split_apply X hs r (grp k) (lane k) k (grp_lane k), lanes_apply, lanes_apply, unitLane_apply, unitLane_apply]
  rfl

/-- The same for the weights, whose stored integers are first read as reals. -/
theorem dequant_wgt {N : ℕ} (W : IVec ⟨2, ![N, 4096]⟩ 32) (Sc Zr : FVec Ideal ⟨2, ![N, 32]⟩ .f32)
    (hs : (⟨2, ![N, 4096]⟩ : Shape).ShapeCasts ⟨3, ![N, 32, 128]⟩)
    (hu : (⟨2, ![N, 32]⟩ : Shape).ShapeCasts ⟨3, ![N, 32, 1]⟩)
    (hb : (⟨3, ![N, 32, 1]⟩ : Shape).Broadcasts ⟨3, ![N, 32, 128]⟩)
    (hm : (⟨3, ![N, 32, 128]⟩ : Shape).ShapeCasts ⟨2, ![N, 4096]⟩) (o : Fin N) (k : Fin 4096) :
    shapeCast ⟨2, ![N, 4096]⟩
        (mulf (subf (shapeCast ⟨3, ![N, 32, 128]⟩ (sitofp .f32 W : FVec Ideal ⟨2, ![N, 4096]⟩ .f32) hs : FVec Ideal ⟨3, ![N, 32, 128]⟩ .f32)
                    (broadcastTo ⟨3, ![N, 32, 128]⟩ (shapeCast ⟨3, ![N, 32, 1]⟩ Zr hu) hb))
              (broadcastTo ⟨3, ![N, 32, 128]⟩ (shapeCast ⟨3, ![N, 32, 1]⟩ Sc hu) hb)) hm (ix2 o k)
      = wgt W Sc Zr o k :=
  dequant_act (sitofp .f32 W : FVec Ideal ⟨2, ![N, 4096]⟩ .f32) Sc Zr hs hu hb hm o k

/-! ## The batched arrays -/

/-- The result on the arrays as the programs take them — activations [4, 2048, 4096] with scale and zero tables
    [4, 2048, 32, 1], weights [11008, 4096] with tables [11008, 32, 1] —: entry (b, s, o) contracts row (b, s) of the
    dequantised activations with row o of the dequantised weights. -/
def out (x : FVec Ideal ⟨3, ![4, 2048, 4096]⟩ .f32) (asc azr : FVec Ideal ⟨4, ![4, 2048, 32, 1]⟩ .f32)
    (w : IVec ⟨2, ![11008, 4096]⟩ 32) (wsc wzr : FVec Ideal ⟨3, ![11008, 32, 1]⟩ .f32) : FVec Ideal ⟨3, ![4, 2048, 11008]⟩ .f32 :=
  fun i => ∑ k : Fin 4096,
    ((x (ix3 (i 0) (i 1) k) - azr (ix4 (i 0) (i 1) (grp k) (0 : Fin 1))) * asc (ix4 (i 0) (i 1) (grp k) (0 : Fin 1)))
    * ((FloatOps.sitofp (F := Ideal) .f32 (w (ix2 (i 2) k)) - wzr (ix3 (i 2) (grp k) (0 : Fin 1))) * wsc (ix3 (i 2) (grp k) (0 : Fin 1)))

/-- (batch, position) as one row: 2048 · batch + position. -/
def row (b : Fin 4) (s : Fin 2048) : Fin 8192 := ⟨b.val * 2048 + s.val, by have := b.isLt; have := s.isLt; omega⟩

section Rows

variable {α : Type}

/-- The activations with (batch, position) flattened to rows. -/
theorem rows_apply (x : (⟨3, ![4, 2048, 4096]⟩ : Shape).Idx → α)
    (h : (⟨3, ![4, 2048, 4096]⟩ : Shape).ShapeCasts ⟨2, ![8192, 4096]⟩) (b : Fin 4) (s : Fin 2048) (k : Fin 4096) :
    shapeCast ⟨2, ![8192, 4096]⟩ x h (ix2 (row b s) k) = x (ix3 b s k) :=
  shapeCast_apply x h (ix2 (row b s) k) (ix3 b s k) (by
    rw [Shape.rowMajor_val_two, Shape.rowMajor_val_three]
    show (b.val * 2048 + s.val) * 4096 + k.val = (b.val * 2048 + s.val) * 4096 + k.val
    rfl)

/-- An activation table with (batch, position) flattened to rows and its unit axis dropped. -/
theorem rowsTable_apply (a : (⟨4, ![4, 2048, 32, 1]⟩ : Shape).Idx → α)
    (h : (⟨4, ![4, 2048, 32, 1]⟩ : Shape).ShapeCasts ⟨2, ![8192, 32]⟩) (b : Fin 4) (s : Fin 2048) (g : Fin 32) :
    shapeCast ⟨2, ![8192, 32]⟩ a h (ix2 (row b s) g) = a (ix4 b s g (0 : Fin 1)) :=
  shapeCast_apply a h (ix2 (row b s) g) (ix4 b s g (0 : Fin 1)) (by
    rw [Shape.rowMajor_val_two, Shape.rowMajor_val_four]
    show ((b.val * 2048 + s.val) * 32 + g.val) * 1 + 0 = (b.val * 2048 + s.val) * 32 + g.val
    omega)

/-- A weight table with its unit axis dropped. -/
theorem table_apply (t : (⟨3, ![11008, 32, 1]⟩ : Shape).Idx → α)
    (h : (⟨3, ![11008, 32, 1]⟩ : Shape).ShapeCasts ⟨2, ![11008, 32]⟩) (o : Fin 11008) (g : Fin 32) :
    shapeCast ⟨2, ![11008, 32]⟩ t h (ix2 o g) = t (ix3 o g (0 : Fin 1)) :=
  shapeCast_apply t h (ix2 o g) (ix3 o g (0 : Fin 1)) (by
    rw [Shape.rowMajor_val_two, Shape.rowMajor_val_three]
    show (o.val * 32 + g.val) * 1 + 0 = o.val * 32 + g.val
    omega)

/-- The rows of the result viewed back as (batch, position). -/
theorem unrows_apply (y : (⟨2, ![8192, 11008]⟩ : Shape).Idx → α)
    (h : (⟨2, ![8192, 11008]⟩ : Shape).ShapeCasts ⟨3, ![4, 2048, 11008]⟩) (b : Fin 4) (s : Fin 2048) (o : Fin 11008) :
    shapeCast ⟨3, ![4, 2048, 11008]⟩ y h (ix3 b s o) = y (ix2 (row b s) o) :=
  shapeCast_apply y h (ix3 b s o) (ix2 (row b s) o) (by
    rw [Shape.rowMajor_val_two, Shape.rowMajor_val_three]
    show (b.val * 2048 + s.val) * 11008 + o.val = (b.val * 2048 + s.val) * 11008 + o.val
    rfl)

end Rows

/-- FLATTENING THE ROWS COMMUTES WITH THE COMPUTATION: the matrix product of the flattened arrays, viewed back as
    (batch, position, output), is the batched result — each factor of each term is the same array entry. -/
theorem out_rows (x : FVec Ideal ⟨3, ![4, 2048, 4096]⟩ .f32) (asc azr : FVec Ideal ⟨4, ![4, 2048, 32, 1]⟩ .f32)
    (w : IVec ⟨2, ![11008, 4096]⟩ 32) (wsc wzr : FVec Ideal ⟨3, ![11008, 32, 1]⟩ .f32)
    (hx : (⟨3, ![4, 2048, 4096]⟩ : Shape).ShapeCasts ⟨2, ![8192, 4096]⟩)
    (ha : (⟨4, ![4, 2048, 32, 1]⟩ : Shape).ShapeCasts ⟨2, ![8192, 32]⟩)
    (hw : (⟨3, ![11008, 32, 1]⟩ : Shape).ShapeCasts ⟨2, ![11008, 32]⟩)
    (ho : (⟨2, ![8192, 11008]⟩ : Shape).ShapeCasts ⟨3, ![4, 2048, 11008]⟩) :
    shapeCast ⟨3, ![4, 2048, 11008]⟩
        (prod2 (M := 8192) (N := 11008) (shapeCast ⟨2, ![8192, 4096]⟩ x hx) (shapeCast ⟨2, ![8192, 32]⟩ asc ha)
          (shapeCast ⟨2, ![8192, 32]⟩ azr ha) w (shapeCast ⟨2, ![11008, 32]⟩ wsc hw) (shapeCast ⟨2, ![11008, 32]⟩ wzr hw)) ho
      = out x asc azr w wsc wzr := by
  funext i
  obtain ⟨b, s, o, rfl⟩ : ∃ (b : Fin 4) (s : Fin 2048) (o : Fin 11008), i = ix3 b s o := ⟨i 0, i 1, i 2, eq_ix3 i⟩
  refine (unrows_apply _ ho b s o).trans ?_
  show ∑ k : Fin 4096,
      act (shapeCast ⟨2, ![8192, 4096]⟩ x hx) (shapeCast ⟨2, ![8192, 32]⟩ asc ha) (shapeCast ⟨2, ![8192, 32]⟩ azr ha) (row b s) k
        * wgt w (shapeCast ⟨2, ![11008, 32]⟩ wsc hw) (shapeCast ⟨2, ![11008, 32]⟩ wzr hw) o k
    = ∑ k : Fin 4096,
      ((x (ix3 b s k) - azr (ix4 b s (grp k) (0 : Fin 1))) * asc (ix4 b s (grp k) (0 : Fin 1)))
      * ((FloatOps.sitofp (F := Ideal) .f32 (w (ix2 o k)) - wzr (ix3 o (grp k) (0 : Fin 1))) * wsc (ix3 o (grp k) (0 : Fin 1)))
  refine Finset.sum_congr rfl fun k _ => ?_
  unfold act wgt
  rw [rows_apply x hx, rowsTable_apply azr ha, rowsTable_apply asc ha, table_apply wzr hw, table_apply wsc hw]

/-! ## Tiles -/

/-- A TILE OF THE PRODUCT IS THE PRODUCT OF THE TILES. If row j₀ of a block of activation rows (and of its two tables) is
    row i₀ of the whole arrays, and row j₁ of a block of weight rows (and of its two tables) is row i₁ of the whole arrays,
    then entry (j₀, j₁) of the blocks' product is entry (i₀, i₁) of the whole product: both contract the same two rows
    over all 4096 features. -/
theorem prod2_of_rows {M N M' N' : ℕ}
    (X : FVec Ideal ⟨2, ![M, 4096]⟩ .f32) (A Z : FVec Ideal ⟨2, ![M, 32]⟩ .f32)
    (W : IVec ⟨2, ![N, 4096]⟩ 32) (Sc Zr : FVec Ideal ⟨2, ![N, 32]⟩ .f32)
    (Xb : FVec Ideal ⟨2, ![M', 4096]⟩ .f32) (Ab Zb : FVec Ideal ⟨2, ![M', 32]⟩ .f32)
    (Wb : IVec ⟨2, ![N', 4096]⟩ 32) (Scb Zrb : FVec Ideal ⟨2, ![N', 32]⟩ .f32)
    (j₀ : Fin M') (j₁ : Fin N') (i₀ : Fin M) (i₁ : Fin N)
    (hX : ∀ k, Xb (ix2 j₀ k) = X (ix2 i₀ k)) (hA : ∀ g, Ab (ix2 j₀ g) = A (ix2 i₀ g)) (hZ : ∀ g, Zb (ix2 j₀ g) = Z (ix2 i₀ g))
    (hW : ∀ k, Wb (ix2 j₁ k) = W (ix2 i₁ k)) (hSc : ∀ g, Scb (ix2 j₁ g) = Sc (ix2 i₁ g)) (hZr : ∀ g, Zrb (ix2 j₁ g) = Zr (ix2 i₁ g)) :
    prod2 Xb Ab Zb Wb Scb Zrb (ix2 j₀ j₁) = prod2 X A Z W Sc Zr (ix2 i₀ i₁) := by
  show ∑ k : Fin 4096, act Xb Ab Zb j₀ k * wgt Wb Scb Zrb j₁ k = ∑ k : Fin 4096, act X A Z i₀ k * wgt W Sc Zr i₁ k
  refine Finset.sum_congr rfl fun k _ => ?_
  unfold act wgt
  rw [hX k, hA (grp k), hZ (grp k), hW k, hSc (grp k), hZr (grp k)]

end Cert.GroupDequant

end
-- ==== Proof.Payload.lean ====
/-
  What the kernel body stores, as a function of the six blocks it loads.

  The body takes a block of 512 activation rows with their scale and zero tables, and a block of 128 weight rows with
  theirs; it dequantises both group-wise (split the 4096 features into 32 groups of 128 lanes, subtract the zero point
  and multiply by the scale of the group, merge the features back), narrows both to bf16 — at the ideal instance a change
  of format is the identity — and multiplies the two on the matrix unit into a zero accumulator, contracting the features.
  A matrix product into zero is the bare sum over the contracted axis, so entry (p, q) of the stored tile is
  Σ k, act p k · wgt q k: the specification's matrix product of the two blocks.
-/
import proofs.«152398_j57123065037500_2_alg».proof.Proof.Gen.KernelIdeal.Skeleton
import proofs.«152398_j57123065037500_2_alg».proof.Proof.Spec

noncomputable section

namespace Cert.KernelIdeal.Body

open Cert.KernelIdeal Cert.KernelIdeal.Gen Idealize.ShloMosaic Idealize.ShloMosaic.ValueIdx Cert.GroupDequant

/-! ## Which operand entries the matrix unit pairs

The product contracts axis 1 of both operands; the left operand's axis 0 is the tile's row, the right operand's axis 0
the tile's column. -/

theorem lhs_row (j : S512x128.Idx) (q : dot_S512x4096_S128x4096_S512x128_1_1_0_0_n_n.contr.Idx) :
    (dot_S512x4096_S128x4096_S512x128_1_1_0_0_n_n.lhsIdx j q 0).val = (j 0).val := by
  unfold DotDims.lhsIdx
  rw [dif_neg (show ¬(0 : Fin S512x4096.rank) ∈ dot_S512x4096_S128x4096_S512x128_1_1_0_0_n_n.lhsBatch by decide),
    dif_pos (show (0 : Fin S512x4096.rank) ∈ dot_S512x4096_S128x4096_S512x128_1_1_0_0_n_n.lhsNonContracting by decide)]
  rfl

theorem lhs_feature (j : S512x128.Idx) (q : dot_S512x4096_S128x4096_S512x128_1_1_0_0_n_n.contr.Idx) :
    (dot_S512x4096_S128x4096_S512x128_1_1_0_0_n_n.lhsIdx j q 1).val = (q ⟨0, by decide⟩).val :=
  dot_S512x4096_S128x4096_S512x128_1_1_0_0_n_n.lhsIdx_val_of_single rfl j q

theorem rhs_row (j : S512x128.Idx) (q : dot_S512x4096_S128x4096_S512x128_1_1_0_0_n_n.contr.Idx) :
    (dot_S512x4096_S128x4096_S512x128_1_1_0_0_n_n.rhsIdx j q 0).val = (j 1).val := by
  unfold DotDims.rhsIdx
  rw [dif_neg (show ¬(0 : Fin S128x4096.rank) ∈ dot_S512x4096_S128x4096_S512x128_1_1_0_0_n_n.rhsBatch by decide),
    dif_pos (show (0 : Fin S128x4096.rank) ∈ dot_S512x4096_S128x4096_S512x128_1_1_0_0_n_n.rhsNonContracting by decide)]
  rfl

theorem rhs_feature (j : S512x128.Idx) (q : dot_S512x4096_S128x4096_S512x128_1_1_0_0_n_n.contr.Idx) :
    (dot_S512x4096_S128x4096_S512x128_1_1_0_0_n_n.rhsIdx j q 1).val = (q ⟨0, by decide⟩).val :=
  dot_S512x4096_S128x4096_S512x128_1_1_0_0_n_n.rhsIdx_val_of_single rfl j q

/-! ## The stored tile -/

/-- The tile the body stores is the specification's product of the loaded blocks: x, its scales, its zeros; the integer
    weights, their scales, their zeros. -/
theorem pay_eq (x : FVec Ideal S512x4096 .f32) (a z : FVec Ideal S512x32 .f32) (w : IVec S128x4096 32)
    (sc zr : FVec Ideal S128x32 .f32) :
    k0_pay1 (F := Ideal) x a z w sc zr = prod2 (M := 512) (N := 128) x a z w sc zr := by
  funext j
  obtain ⟨p, q, rfl⟩ : ∃ (p : Fin 512) (q : Fin 128), j = ix2 p q := ⟨j 0, j 1, eq_ix2 j⟩
  unfold k0_pay1
  refine (Ideal.matmul_constant_zero_apply dot_S512x4096_S128x4096_S512x128_1_1_0_0_n_n none _ _ (ix2 p q)).trans ?_
  rw [← Equiv.sum_comp (contrEquiv1 dot_S512x4096_S128x4096_S512x128_1_1_0_0_n_n 4096 rfl rfl).symm]
  show _ = ∑ k : Fin 4096, act x a z p k * wgt w sc zr q k
  refine Finset.sum_congr rfl fun k _ => ?_
  have hk := contrEquiv1_symm_val dot_S512x4096_S128x4096_S512x128_1_1_0_0_n_n 4096 rfl rfl k
  have el : dot_S512x4096_S128x4096_S512x128_1_1_0_0_n_n.lhsIdx (ix2 p q)
      ((contrEquiv1 dot_S512x4096_S128x4096_S512x128_1_1_0_0_n_n 4096 rfl rfl).symm k) = ix2 p k :=
    funext fun a => Fin.ext (by
      match a with
      | ⟨0, _⟩ => exact lhs_row _ _
      | ⟨1, _⟩ => exact (lhs_feature _ _).trans hk)
  have er : dot_S512x4096_S128x4096_S512x128_1_1_0_0_n_n.rhsIdx (ix2 p q)
      ((contrEquiv1 dot_S512x4096_S128x4096_S512x128_1_1_0_0_n_n 4096 rfl rfl).symm k) = ix2 q k :=
    funext fun a => Fin.ext (by
      match a with
      | ⟨0, _⟩ => exact rhs_row _ _
      | ⟨1, _⟩ => exact (rhs_feature _ _).trans hk)
  rw [el, er]
  refine congrArg₂ (· * ·) ?_ ?_
  · refine Eq.trans ?_ (dequant_act x a z shapeCasts_S512x4096_S512x32x128 shapeCasts_S512x32_S512x32x1
      broadcasts_S512x32x1_S512x32x128 shapeCasts_S512x32x128_S512x4096 p k)
    rw [shapeCast_self x, shapeCast_self a, shapeCast_self z]
    rfl
  · refine Eq.trans ?_ (dequant_wgt w sc zr shapeCasts_S128x4096_S128x32x128 shapeCasts_S128x32_S128x32x1
      broadcasts_S128x32x1_S128x32x128 shapeCasts_S128x32x128_S128x4096 q k)
    rw [shapeCast_self sc, shapeCast_self zr]
    rfl

end Cert.KernelIdeal.Body

end
-- ==== Proof.Tiles.lean ====
/-
  Which blocks a grid point takes.

  The grid has 16 × 86 points. Point t = 86 i + j fetches block i of the activation rows and of their scale and zero
  tables, block j of the weight rows and of theirs — every one over the whole feature axis, block 0 — and writes tile
  (i, j) of the result. Stated as relations between the printed index maps and decided once over the 1376 points.
-/
import proofs.«152398_j57123065037500_2_alg».proof.Proof.Gen.KernelIdeal.Points

noncomputable section

namespace Cert.KernelIdeal.Tiles

open Cert.KernelIdeal Cert.KernelIdeal.Gen Idealize.ShloMosaic

/-- Every activation window moves with the output tile's row index and every weight window with its column index, all
    at feature block 0; and point t writes tile (t / 86, t % 86). -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = win0_6.index t (1 : Fin 2) ∧ win0_3.index t (1 : Fin 2) = 0
    ∧ win0_4.index t (0 : Fin 2) = win0_6.index t (1 : Fin 2) ∧ win0_4.index t (1 : Fin 2) = 0
    ∧ win0_5.index t (0 : Fin 2) = win0_6.index t (1 : Fin 2) ∧ win0_5.index t (1 : Fin 2) = 0
    ∧ win0_6.index t (0 : Fin 2) = t.val / 86 ∧ win0_6.index t (1 : Fin 2) = t.val % 86 :=
  (by decide +kernel : ∀ t : Fin grid0.N, _)

end Cert.KernelIdeal.Tiles

end
-- ==== Proof.Blocks.lean ====
/-
  The kernel's result array.

  Point t = 86 i + j of the 16 × 86 grid takes activation rows 512 i … 512 i + 511 (with their two tables), weight rows
  128 j … 128 j + 127 (with theirs), each over all 4096 features, and writes tile (i, j), 512 × 128, of the 8192 × 11008
  result. The body stores the specification's product of the blocks it loaded; a tile of the product is the product of the
  tiles; and the 1376 tiles cover the result (entry (r, o) lies in the tile of point 86 (r / 512) + o / 128). So the region
  leaves the whole product of the flattened arrays in its output array.

  Around the region the host only changes layouts: before it, (batch, position) are flattened to rows and the tables'
  unit axes dropped; after it, the rows are viewed back as (batch, position). Flattening the rows commutes with the
  computation, so the program's result is the specification on the batched arrays.
-/
import proofs.«152398_j57123065037500_2_alg».proof.Proof.Gen.KernelIdeal.Frame
import proofs.«152398_j57123065037500_2_alg».proof.Proof.Payload
import proofs.«152398_j57123065037500_2_alg».proof.Proof.Tiles
import proofs.«152398_j57123065037500_2_alg».proof.Proof.Spec
import Idealize.ShloMosaic.Lib.Pipeline.Value
import Idealize.ShloMosaic.Lib.StableHlo.Run

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx Cert.GroupDequant Cert.KernelIdeal.Tiles Cert.KernelIdeal.Body
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

theorem point_lt (t : Fin cfg0.N) : t.val < 1376 := lt_of_lt_of_eq t.isLt N_0

/-! ## The blocks a point loads, as rows of the arrays the region finds

A block's element sits in its array at block index × block size + its coordinate inside the block. -/

section Reads

variable (c : Dev nD) (t : Fin cfg0.N)

/-- Row r of the activation block is row 512 · (tile row) + r of the flattened activations. -/
theorem read_x (r : Fin 512) (k : Fin 4096) (R : Fin 8192) (hR : R.val = win0_6.index t (0 : Fin 2) * 512 + r.val) :
    iblk m c 0 t (ix2 r k) = V m c main_v0 (ix2 R k) := by
  obtain ⟨e00, e01, e10, e11, e20, e21, e30, e31, e40, e41, e50, e51, e60, e61⟩ := idx_facts t
  show V m c main_v0 (((cfg0.win 0).blk t).view.emb (ix2 r k)) = V m c main_v0 (ix2 R k)
  have h : ((cfg0.win 0).blk t).view.emb (ix2 r k) = (ix2 R k : S8192x4096.Idx) := by
    funext a; apply Fin.ext
    match a with
    | ⟨0, _⟩ => show win0_0.index t (0 : Fin 2) * 512 + 1 * r.val = R.val; omega
    | ⟨1, _⟩ => show win0_0.index t (1 : Fin 2) * 4096 + 1 * k.val = k.val; omega
  rw [h]

/-- The same row of the activations' scale table. -/
theorem read_a (r : Fin 512) (g : Fin 32) (R : Fin 8192) (hR : R.val = win0_6.index t (0 : Fin 2) * 512 + r.val) :
    iblk m c 1 t (ix2 r g) = V m c main_v1 (ix2 R g) := by
  obtain ⟨e00, e01, e10, e11, e20, e21, e30, e31, e40, e41, e50, e51, e60, e61⟩ := idx_facts t
  show V m c main_v1 (((cfg0.win 1).blk t).view.emb (ix2 r g)) = V m c main_v1 (ix2 R g)
  have h : ((cfg0.win 1).blk t).view.emb (ix2 r g) = (ix2 R g : S8192x32.Idx) := by
    funext a; apply Fin.ext
    match a with
    | ⟨0, _⟩ => show win0_1.index t (0 : Fin 2) * 512 + 1 * r.val = R.val; omega
    | ⟨1, _⟩ => show win0_1.index t (1 : Fin 2) * 32 + 1 * g.val = g.val; omega
  rw [h]

/-- The same row of the activations' zero table. -/
theorem read_z (r : Fin 512) (g : Fin 32) (R : Fin 8192) (hR : R.val = win0_6.index t (0 : Fin 2) * 512 + r.val) :
    iblk m c 2 t (ix2 r g) = V m c main_v2 (ix2 R g) := by
  obtain ⟨e00, e01, e10, e11, e20, e21, e30, e31, e40, e41, e50, e51, e60, e61⟩ := idx_facts t
  show V m c main_v2 (((cfg0.win 2).blk t).view.emb (ix2 r g)) = V m c main_v2 (ix2 R g)
  have h : ((cfg0.win 2).blk t).view.emb (ix2 r g) = (ix2 R g : S8192x32.Idx) := by
    funext a; apply Fin.ext
    match a with
    | ⟨0, _⟩ => show win0_2.index t (0 : Fin 2) * 512 + 1 * r.val = R.val; omega
    | ⟨1, _⟩ => show win0_2.index t (1 : Fin 2) * 32 + 1 * g.val = g.val; omega
  rw [h]

/-- Row q of the weight block is row 128 · (tile column) + q of the weights. -/
theorem read_w (q : Fin 128) (k : Fin 4096) (O : Fin 11008) (hO : O.val = win0_6.index t (1 : Fin 2) * 128 + q.val) :
    iblk m c 3 t (ix2 q k) = V m c main_arg3 (ix2 O k) := by
  obtain ⟨e00, e01, e10, e11, e20, e21, e30, e31, e40, e41, e50, e51, e60, e61⟩ := idx_facts t
  show V m c main_arg3 (((cfg0.win 3).blk t).view.emb (ix2 q k)) = V m c main_arg3 (ix2 O k)
  have h : ((cfg0.win 3).blk t).view.emb (ix2 q k) = (ix2 O k : S11008x4096.Idx) := by
    funext a; apply Fin.ext
    match a with
    | ⟨0, _⟩ => show win0_3.index t (0 : Fin 2) * 128 + 1 * q.val = O.val; omega
    | ⟨1, _⟩ => show win0_3.index t (1 : Fin 2) * 4096 + 1 * k.val = k.val; omega
  rw [h]

/-- The same row of the weights' scale table. -/
theorem read_sc (q : Fin 128) (g : Fin 32) (O : Fin 11008) (hO : O.val = win0_6.index t (1 : Fin 2) * 128 + q.val) :
    iblk m c 4 t (ix2 q g) = V m c main_v3 (ix2 O g) := by
  obtain ⟨e00, e01, e10, e11, e20, e21, e30, e31, e40, e41, e50, e51, e60, e61⟩ := idx_facts t
  show V m c main_v3 (((cfg0.win 4).blk t).view.emb (ix2 q g)) = V m c main_v3 (ix2 O g)
  have h : ((cfg0.win 4).blk t).view.emb (ix2 q g) = (ix2 O g : S11008x32.Idx) := by
    funext a; apply Fin.ext
    match a with
    | ⟨0, _⟩ => show win0_4.index t (0 : Fin 2) * 128 + 1 * q.val = O.val; omega
    | ⟨1, _⟩ => show win0_4.index t (1 : Fin 2) * 32 + 1 * g.val = g.val; omega
  rw [h]

/-- The same row of the weights' zero table. -/
theorem read_zr (q : Fin 128) (g : Fin 32) (O : Fin 11008) (hO : O.val = win0_6.index t (1 : Fin 2) * 128 + q.val) :
    iblk m c 5 t (ix2 q g) = V m c main_v4 (ix2 O g) := by
  obtain ⟨e00, e01, e10, e11, e20, e21, e30, e31, e40, e41, e50, e51, e60, e61⟩ := idx_facts t
  show V m c main_v4 (((cfg0.win 5).blk t).view.emb (ix2 q g)) = V m c main_v4 (ix2 O g)
  have h : ((cfg0.win 5).blk t).view.emb (ix2 q g) = (ix2 O g : S11008x32.Idx) := by
    funext a; apply Fin.ext
    match a with
    | ⟨0, _⟩ => show win0_5.index t (0 : Fin 2) * 128 + 1 * q.val = O.val; omega
    | ⟨1, _⟩ => show win0_5.index t (1 : Fin 2) * 32 + 1 * g.val = g.val; omega
  rw [h]

end Reads

/-! ## What a point writes back -/

/-- The product of the flattened arrays as the region finds them: what the output array is to hold. -/
abbrev whole (c : Dev nD) : FVec Ideal S8192x11008 .f32 :=
  prod2 (M := 8192) (N := 11008) (V m c main_v0) (V m c main_v1) (V m c main_v2) (V m c main_arg3) (V m c main_v3) (V m c main_v4)

/-- WHAT POINT t WRITES BACK is tile t of the whole product. -/
theorem flushed_eq (c : Dev nD) (t : Fin cfg0.N) :
    (dats m 0 c).flushed 6 t = ((cfg0.win 6).blk t).view.read (Elt Ideal) (whole m c) := by
  show (cfg0.win 6).cut (grid0.coords t) ((dats m 0 c).after 6 t) = _
  rw [after0_6]
  unfold out0_6
  rw [View.canon_unit_zero zero_offsets]
  simp only [View.ld_unit_zero (S := S512x4096) zero_offsets, View.ld_unit_zero (S := S512x32) zero_offsets,
    View.ld_unit_zero (S := S128x4096) zero_offsets, View.ld_unit_zero (S := S128x32) zero_offsets]
  rw [pay_eq]
  funext j
  obtain ⟨p, q, rfl⟩ : ∃ (p : Fin 512) (q : Fin 128), j = ix2 p q := ⟨j 0, j 1, eq_ix2 j⟩
  obtain ⟨e00, e01, e10, e11, e20, e21, e30, e31, e40, e41, e50, e51, e60, e61⟩ := idx_facts t
  have ht := point_lt t
  have hp := p.isLt
  have hq := q.isLt
  obtain ⟨R, hR⟩ : ∃ R : Fin 8192, R.val = win0_6.index t (0 : Fin 2) * 512 + p.val := ⟨⟨_, by omega⟩, rfl⟩
  obtain ⟨O, hO⟩ : ∃ O : Fin 11008, O.val = win0_6.index t (1 : Fin 2) * 128 + q.val := ⟨⟨_, by omega⟩, rfl⟩
  have hemb : ((cfg0.win 6).blk t).view.emb (ix2 p q) = (ix2 R O : S8192x11008.Idx) := by
    funext a; apply Fin.ext
    match a with
    | ⟨0, _⟩ => show win0_6.index t (0 : Fin 2) * 512 + 1 * p.val = R.val; omega
    | ⟨1, _⟩ => show win0_6.index t (1 : Fin 2) * 128 + 1 * q.val = O.val; omega
  show prod2 (M := 512) (N := 128) (iblk m c 0 t) (iblk m c 1 t) (iblk m c 2 t) (iblk m c 3 t) (iblk m c 4 t) (iblk m c 5 t) (ix2 p q)
    = whole m c (((cfg0.win 6).blk t).view.emb (ix2 p q))
  rw [hemb]
  exact prod2_of_rows _ _ _ _ _ _ _ _ _ _ _ _ p q R O
    (fun k => read_x m c t p k R hR) (fun g => read_a m c t p g R hR) (fun g => read_z m c t p g R hR)
    (fun k => read_w m c t q k O hO) (fun g => read_sc m c t q g O hO) (fun g => read_zr m c t q g O hO)

/-! ## The tiles cover the result -/

/-- An entry of the result is in point t's tile iff each coordinate is in the tile's range on its axis. -/
theorem mem_tile (t : Fin cfg0.N) (i : S8192x11008.Idx) :
    i ∈ ((cfg0.win 6).blk t).view.set ↔ ∀ a : Fin 2, win0_6.index t a * S512x128.size a ≤ (i a).val ∧ (i a).val < win0_6.index t a * S512x128.size a + S512x128.size a := by
  show i ∈ ((View.whole main_v5).slice (win0_6.rect t)).set ↔ _
  rw [View.set_slice_whole, Rect.mem_set_unit]
  exact Iff.rfl

/-- Entry (r, o) lies in the tile of point 86 (r / 512) + o / 128. -/
theorem cover (i : S8192x11008.Idx) : ∃ t : Fin cfg0.N, (cfg0.win 6).flush t = true ∧ i ∈ ((cfg0.win 6).blk t).view.set := by
  have hi0 : (i 0).val < 8192 := (i 0).isLt
  have hi1 : (i 1).val < 11008 := (i 1).isLt
  obtain ⟨t, htv⟩ : ∃ t : Fin cfg0.N, t.val = (i 0).val / 512 * 86 + (i 1).val / 128 :=
    ⟨⟨(i 0).val / 512 * 86 + (i 1).val / 128, lt_of_lt_of_eq (by omega : (i 0).val / 512 * 86 + (i 1).val / 128 < 1376) N_0.symm⟩, rfl⟩
  obtain ⟨e00, e01, e10, e11, e20, e21, e30, e31, e40, e41, e50, e51, e60, e61⟩ := idx_facts t
  refine ⟨t, flush0_6 t, ?_⟩
  rw [mem_tile]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 128 ≤ (i 1).val ∧ (i 1).val < win0_6.index t (1 : Fin 2) * 128 + 128; omega

/-- THE OUTPUT ARRAY after the region is the whole product of the flattened arrays. -/
theorem region_eq (c : Dev nD) : (dats m 0 c).arrAt 6 cfg0.N = whole m c :=
  (dats m 0 c).arrAt_eq_of_cover 6 (whole m c) (fun t _ => flushed_eq m c t) cover

end Cert.KernelIdeal.Array

end
-- ==== Proof.Host.lean ====
/-
  The host operations around the region.

  Before the region the program flattens (batch, position) of the activations and of their two tables to rows, dropping
  the tables' unit axis, and drops the unit axis of the two weight tables; the integer weights go in as they are. After the
  region it views the rows of the region's output back as (batch, position). Each is a change of layout: the same
  entries in the same row-major order.
-/
import proofs.«152398_j57123065037500_2_alg».proof.Proof.Gen.KernelIdeal.Frame
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The region finds the activations with (batch, position) flattened to rows. -/
theorem found_x (c : Dev nD) :
    V m c main_v0 = shapeCast S8192x4096 (m ((c : Thread nD τ).loc main_arg0)) shapeCasts_S4x2048x4096_S8192x4096 := by
  show StableHlo.after hostOps0 (fun b => m (c, b)) (Proc.devRef .tc main_v0) = _
  after_results
  rfl

/-- The activations' scale table, rows flattened, unit axis dropped. -/
theorem found_a (c : Dev nD) :
    V m c main_v1 = shapeCast S8192x32 (m ((c : Thread nD τ).loc main_arg1)) shapeCasts_S4x2048x32x1_S8192x32 := by
  show StableHlo.after hostOps0 (fun b => m (c, b)) (Proc.devRef .tc main_v1) = _
  after_results
  rfl

/-- The activations' zero table, likewise. -/
theorem found_z (c : Dev nD) :
    V m c main_v2 = shapeCast S8192x32 (m ((c : Thread nD τ).loc main_arg2)) shapeCasts_S4x2048x32x1_S8192x32 := by
  show StableHlo.after hostOps0 (fun b => m (c, b)) (Proc.devRef .tc main_v2) = _
  after_results
  rfl

/-- The weights' scale table, unit axis dropped. -/
theorem found_sc (c : Dev nD) :
    V m c main_v3 = shapeCast S11008x32 (m ((c : Thread nD τ).loc main_arg4)) shapeCasts_S11008x32x1_S11008x32 := by
  show StableHlo.after hostOps0 (fun b => m (c, b)) (Proc.devRef .tc main_v3) = _
  after_results
  rfl

/-- The weights' zero table, likewise. -/
theorem found_zr (c : Dev nD) :
    V m c main_v4 = shapeCast S11008x32 (m ((c : Thread nD τ).loc main_arg5)) shapeCasts_S11008x32x1_S11008x32 := by
  show StableHlo.after hostOps0 (fun b => m (c, b)) (Proc.devRef .tc main_v4) = _
  after_results
  rfl

/-- The program's result: the region's output array with its rows viewed back as (batch, position). -/
theorem tail_eq (c : Dev nD) :
    Pipeline.afterTail₀ cfgs (dats m) 0 (V0 m) [hostOps1] c main_v6
      = shapeCast S4x2048x11008 ((dats m 0 c).arrAt 6 cfg0.N) shapeCasts_S8192x11008_S4x2048x11008 := by
  unfold Pipeline.afterTail₀
  show StableHlo.after hostOps1 _ (Proc.devRef .tc main_v6) = _
  after_results
  rw [Pipeline.withArrays_arr spec0 launch0.win.arr_inj c _ _ 6]
  rfl

end Cert.KernelIdeal.Host

end
-- ==== Proof.Result.lean ====
/-
  The kernel program's result.

  The region leaves the product of the flattened arrays in its output array; the arrays it finds are the arguments with
  their rows flattened; the program's result is that output with its rows viewed back as (batch, position); and flattening
  the rows commutes with the computation. So the program ends with the specification of its six arguments in its result
  buffer, and — the frame — with the arguments as they were.
-/
import proofs.«152398_j57123065037500_2_alg».proof.Proof.Blocks
import proofs.«152398_j57123065037500_2_alg».proof.Proof.Host
import proofs.«152398_j57123065037500_2_alg».proof.Proof.Spec

noncomputable section

namespace Cert.KernelIdeal.Result

open Cert.KernelIdeal Cert.KernelIdeal.Gen Idealize.ShloMosaic Idealize.ShloMosaic.TcCoe Idealize.SL.Sem
open Cert.GroupDequant Cert.KernelIdeal.Array Cert.KernelIdeal.Host
open Idealize.ShloMosaic.Pipeline (Dat)

variable (m : (ℓ : Loc nD τ sig) → Buf (Elt Ideal) ℓ) (ρ : Dev nD → PrngReg)

/-- What the lines after the region leave in the result buffer is the specification of the argument arrays. -/
theorem result_eq (c : Dev nD) :
    Pipeline.afterTail₀ cfgs (dats m) 0 (V0 m) [hostOps1] c main_v6
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [tail_eq m c, region_eq m c]
  unfold whole
  rw [found_x m c, found_a m c, found_z m c, V_main_arg3 m c, found_sc m c, found_zr m c]
  exact out_rows _ _ _ _ _ _ _ _ _ _

/-- Every weakly fair execution of the kernel program terminates with the specification of its arguments in its result
    buffer and its arguments unchanged. -/
theorem run : θ_run defs (onTc (τ := τ) (main (F := Ideal))) ⟨m, fun _ => 0, ρ⟩ fun r => ∀ c : Dev nD,
      r.2.mem ((c.tc : Thread nD τ).loc main_v6)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.RefSpec.lean ====
/-
  The reference computes the specification.

  The reference splits the activations' feature axis into (group, lane), subtracts the zero table and multiplies by the
  scale table, each repeated along the lanes, merges the features back, does the same to the weights (whose integers it
  reads as reals after the split rather than before: the conversion acts entry by entry, so the order is immaterial), and
  contracts the 4096 features of row (b, s) of the one with row o of the other. Read at an index, every layout change is
  its operand at the index with the same row-major position: splitting feature k gives (k / 128, k % 128), merging gives k
  back, and a table repeated along the lanes is read at lane 0. So each term of the reference's sum is, factor by factor,
  the term of the specification.
-/
import proofs.«152398_j57123065037500_2_alg».proof.Proof.Gen.ReferenceIdeal.Read
import proofs.«152398_j57123065037500_2_alg».proof.Proof.Spec

noncomputable section

namespace Cert.ReferenceIdeal.Spec

open Cert.ReferenceIdeal Cert.ReferenceIdeal.Read Idealize.ShloMosaic Idealize.ShloMosaic.ValueIdx Cert.GroupDequant

/-! ## The composed index maps, in coordinates -/

/-- The merged activations at (b, s, k) read the split ones at (b, s, k / 128, k % 128). -/
theorem merged_act (b : Fin 4) (s : Fin 2048) (o : Fin 11008) (k : Fin 4096) :
    idx_main_v5 (lidx_main_v13 (ix3 b s o) k) = ix4 b s (grp k) (lane k) :=
  funext fun a => Fin.ext (by
    have hb : b.val < 4 := b.isLt
    have hs : s.val < 2048 := s.isLt
    have hk : k.val < 4096 := k.isLt
    match a with
    | ⟨0, _⟩ => show ((b.val * 2048 + s.val) * 4096 + k.val) / 8388608 = b.val; omega
    | ⟨1, _⟩ => show ((b.val * 2048 + s.val) * 4096 + k.val) / 4096 % 2048 = s.val; omega
    | ⟨2, _⟩ => show ((b.val * 2048 + s.val) * 4096 + k.val) / 128 % 32 = k.val / 128; omega
    | ⟨3, _⟩ => show ((b.val * 2048 + s.val) * 4096 + k.val) % 128 = k.val % 128; omega)

/-- The split activations at (b, s, g, l) read the argument at (b, s, 128 g + l). -/
theorem split_act (b : Fin 4) (s : Fin 2048) (k : Fin 4096) :
    idx_main_v0 (ix4 b s (grp k) (lane k)) = ix3 b s k :=
  funext fun a => Fin.ext (by
    have hb : b.val < 4 := b.isLt
    have hs : s.val < 2048 := s.isLt
    have hk : k.val < 4096 := k.isLt
    match a with
    | ⟨0, _⟩ => show (((b.val * 2048 + s.val) * 32 + k.val / 128) * 128 + k.val % 128) / 8388608 = b.val; omega
    | ⟨1, _⟩ => show (((b.val * 2048 + s.val) * 32 + k.val / 128) * 128 + k.val % 128) / 4096 % 2048 = s.val; omega
    | ⟨2, _⟩ => show (((b.val * 2048 + s.val) * 32 + k.val / 128) * 128 + k.val % 128) % 4096 = k.val; omega)

/-- The zero table repeated along the lanes is read at lane 0. -/
theorem zero_act (b : Fin 4) (s : Fin 2048) (g : Fin 32) (l : Fin 128) :
    idx_main_v1 (ix4 b s g l) = ix4 b s g (0 : Fin 1) :=
  funext fun a => Fin.ext (by match a with | ⟨0, _⟩ => rfl | ⟨1, _⟩ => rfl | ⟨2, _⟩ => rfl | ⟨3, _⟩ => rfl)

/-- So is the scale table. -/
theorem scale_act (b : Fin 4) (s : Fin 2048) (g : Fin 32) (l : Fin 128) :
    idx_main_v3 (ix4 b s g l) = ix4 b s g (0 : Fin 1) :=
  funext fun a => Fin.ext (by match a with | ⟨0, _⟩ => rfl | ⟨1, _⟩ => rfl | ⟨2, _⟩ => rfl | ⟨3, _⟩ => rfl)

/-- The merged weights at (o, k) read the split ones at (o, k / 128, k % 128). -/
theorem merged_wgt (b : Fin 4) (s : Fin 2048) (o : Fin 11008) (k : Fin 4096) :
    idx_main_v12 (ridx_main_v13 (ix3 b s o) k) = ix3 o (grp k) (lane k) :=
  funext fun a => Fin.ext (by
    have ho : o.val < 11008 := o.isLt
    have hk : k.val < 4096 := k.isLt
    match a with
    | ⟨0, _⟩ => show (o.val * 4096 + k.val) / 4096 = o.val; omega
    | ⟨1, _⟩ => show (o.val * 4096 + k.val) / 128 % 32 = k.val / 128; omega
    | ⟨2, _⟩ => show (o.val * 4096 + k.val) % 128 = k.val % 128; omega)

/-- The split weights at (o, g, l) read the argument at (o, 128 g + l). -/
theorem split_wgt (o : Fin 11008) (k : Fin 4096) :
    idx_main_v6 (ix3 o (grp k) (lane k)) = ix2 o k :=
  funext fun a => Fin.ext (by
    have ho : o.val < 11008 := o.isLt
    have hk : k.val < 4096 := k.isLt
    match a with
    | ⟨0, _⟩ => show ((o.val * 32 + k.val / 128) * 128 + k.val % 128) / 4096 = o.val; omega
    | ⟨1, _⟩ => show ((o.val * 32 + k.val / 128) * 128 + k.val % 128) % 4096 = k.val; omega)

theorem zero_wgt (o : Fin 11008) (g : Fin 32) (l : Fin 128) : idx_main_v8 (ix3 o g l) = ix3 o g (0 : Fin 1) :=
  funext fun a => Fin.ext (by match a with | ⟨0, _⟩ => rfl | ⟨1, _⟩ => rfl | ⟨2, _⟩ => rfl)

theorem scale_wgt (o : Fin 11008) (g : Fin 32) (l : Fin 128) : idx_main_v10 (ix3 o g l) = ix3 o g (0 : Fin 1) :=
  funext fun a => Fin.ext (by match a with | ⟨0, _⟩ => rfl | ⟨1, _⟩ => rfl | ⟨2, _⟩ => rfl)

/-! ## The reference's result -/

/-- The reference's last stage, as a function of its six arguments (activations, their scales, their zeros; weights,
    their scales, their zeros), is the specification. -/
theorem result_eq (x : FVec Ideal S4x2048x4096 .f32) (asc azr : FVec Ideal S4x2048x32x1 .f32) (w : IVec S11008x4096 32)
    (wsc wzr : FVec Ideal S11008x32x1 .f32) :
    val_main_v13 (F := Ideal) x asc azr w wsc wzr = out x asc azr w wsc wzr := by
  funext i
  obtain ⟨b, s, o, rfl⟩ : ∃ (b : Fin 4) (s : Fin 2048) (o : Fin 11008), i = ix3 b s o := ⟨i 0, i 1, i 2, eq_ix3 i⟩
  rw [val_main_v13_apply]
  show _ = ∑ k : Fin 4096,
      ((x (ix3 b s k) - azr (ix4 b s (grp k) (0 : Fin 1))) * asc (ix4 b s (grp k) (0 : Fin 1)))
      * ((FloatOps.sitofp (F := Ideal) .f32 (w (ix2 o k)) - wzr (ix3 o (grp k) (0 : Fin 1))) * wsc (ix3 o (grp k) (0 : Fin 1)))
  refine Finset.sum_congr rfl fun k _ => ?_
  rw [val_main_v5_apply, val_main_v4_apply, val_main_v2_apply, val_main_v0_apply, val_main_v1_apply, val_main_v3_apply,
    val_main_v12_apply, val_main_v11_apply, val_main_v9_apply, val_main_v7_apply, val_main_v6_apply, val_main_v8_apply,
    val_main_v10_apply,
    merged_act b s o k, split_act b s k, zero_act, scale_act, merged_wgt b s o k, split_wgt o k, zero_wgt, scale_wgt]
  rfl

end Cert.ReferenceIdeal.Spec

end
-- ==== Proof.lean ====
/-
  Group-wise dequantised matrix product: a tiled kernel against its plain reference, at the ideal instance.

  Both programs take activations x [4, 2048, 4096] with per-group scales and zero points [4, 2048, 32, 1], and integer
  weights w [11008, 4096] with per-group scales and zero points [11008, 32, 1]; groups are 128 consecutive features.
  Both dequantise, (x − zero) · scale and (int w − zero) · scale, and contract the 4096 features:

      out b s o = Σ k, ((x b s k − az b s g) · as b s g) · ((int w o k − wz o g) · ws o g),      g = k / 128.

  The reference does this on whole arrays. The kernel flattens (batch, position) to 8192 rows, computes the 8192 × 11008
  product in 512 × 128 tiles over a 16 × 86 grid — each tile from 512 activation rows and 128 weight rows over all 4096
  features, both narrowed to bf16 (the identity on the extended reals) and multiplied into a zero accumulator —, and views
  the rows back as (batch, position). Over the extended reals the two are the same sum of the same products term by
  term: the tiling, the row flattening and the position of the integer-to-real conversion only rearrange which entry is
  read where. No term is moved across another and nothing is cancelled, so the inputs' finiteness is never used.

  Spec.lean states the result once and proves the layout laws; Payload.lean reads the kernel body's stored tile;
  Tiles.lean, Blocks.lean, Host.lean and Result.lean carry it from tiles to the program's result; RefSpec.lean reads the
  reference. The frames of both kernel programs are the generated ones; the reference's frame is its run with the result
  dropped; the idealisation rewrote nothing, so there is nothing to preserve.
-/
import proofs.«152398_j57123065037500_2_alg».proof.Defs
import proofs.«152398_j57123065037500_2_alg».proof.Proof.Gen.Kernel
import proofs.«152398_j57123065037500_2_alg».proof.Proof.Gen.Kernel.Skeleton
import proofs.«152398_j57123065037500_2_alg».proof.Proof.Gen.Kernel.Launch
import proofs.«152398_j57123065037500_2_alg».proof.Proof.Gen.Kernel.Points
import proofs.«152398_j57123065037500_2_alg».proof.Proof.Gen.Kernel.Frame
import proofs.«152398_j57123065037500_2_alg».proof.Proof.Gen.KernelIdeal
import proofs.«152398_j57123065037500_2_alg».proof.Proof.Gen.KernelIdeal.Skeleton
import proofs.«152398_j57123065037500_2_alg».proof.Proof.Gen.KernelIdeal.Launch
import proofs.«152398_j57123065037500_2_alg».proof.Proof.Gen.KernelIdeal.Points
import proofs.«152398_j57123065037500_2_alg».proof.Proof.Gen.KernelIdeal.Frame
import proofs.«152398_j57123065037500_2_alg».proof.Proof.Gen.ReferenceIdeal
import proofs.«152398_j57123065037500_2_alg».proof.Proof.Gen.ReferenceIdeal.Read
import proofs.«152398_j57123065037500_2_alg».proof.Proof.Gen.Pre_finite_inputs
import proofs.«152398_j57123065037500_2_alg».proof.Proof.Result
import proofs.«152398_j57123065037500_2_alg».proof.Proof.RefSpec
import Idealize.ShloMosaic.Adequacy
import Idealize.ShloMosaic.Init

noncomputable section

namespace Cert.Proof

open Idealize.ShloMosaic Idealize.SL.Sem

/-- The kernel program as printed terminates and leaves its arguments unchanged. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation is the program's own text read at the ideal instance. -/
theorem preserves : Cert.preserves_Kernel_KernelIdeal := trivial

/-- From memories agreeing on the six arguments both programs end with the specification of those arguments in their
    result buffers: the kernel by its tiles, the reference by its stages. -/
theorem algebraic : Cert.algebraic_KernelIdeal_ReferenceIdeal := by
  intro m ρ m' ρ' _ hagree
  refine ⟨fun c => Cert.GroupDequant.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.Spec.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
